-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S4x8192x768 .f32) (main_arg1 : FVec F S8192x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S4x8192x768 : Shape := ⟨3, ![4, 8192, 768]⟩
abbrev S8192x768 : Shape := ⟨2, ![8192, 768]⟩
abbrev S4x1024x768 : Shape := ⟨3, ![4, 1024, 768]⟩
abbrev S1024x768 : Shape := ⟨2, ![1024, 768]⟩
abbrev S1x1024x768 : Shape := ⟨3, ![1, 1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local _ .vmem, ⟨0, _⟩ => ⟨S4x1024x768, .f32⟩
  | .local _ .vmem, ⟨1, _⟩ => ⟨S4x1024x768, .f32⟩
  | .local _ .vmem, ⟨2, _⟩ => ⟨S1024x768, .f32⟩
  | .local _ .vmem, ⟨3, _⟩ => ⟨S1024x768, .f32⟩
  | .local _ .vmem, ⟨4, _⟩ => ⟨S4x1024x768, .f32⟩
  | .local _ .vmem, ⟨5, _⟩ => ⟨S4x1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x1024x768_S4x1024x768_0_0_0 : ∀ a, (![0, 0, 0] : Fin 3 → Nat) a + S4x1024x768.size a ≤ S4x1024x768.size a
  h_S4x1024x768 : 0 < S4x1024x768.numel
  inb_S1024x768_S1024x768_0_0 : ∀ a, (![0, 0] : Fin 2 → Nat) a + S1024x768.size a ≤ S1024x768.size a
  h_S1024x768 : 0 < S1024x768.numel
  shapeCasts_S1024x768_S1x1024x768 : S1024x768.ShapeCasts S1x1024x768
  broadcasts_S1x1024x768_S4x1024x768 : S1x1024x768.Broadcasts S4x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x768.size a ≤ S4x8192x768.size a
  hwx0_0 : ∀ i : grid0.Coords, EltTy.bits .f32 = 32 ∨ (Rect.block (s := S4x8192x768) S4x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x768.size a ≤ S4x8192x768.size a
  hwx0_2 : ∀ i : grid0.Coords, EltTy.bits .f32 = 32 ∨ (Rect.block (s := S4x8192x768) S4x1024x768.size (cc0_transform_2 i) (hinb0_2 i)).WholeWords (EltTy.packing .f32)

variable [Facts₀]

abbrev win0_0 : Pipeline.Window sig grid0 :=
  Pipeline.Window.ofSpec (Memref.whole main_arg0) S4x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x768, .f32⟩
  | .hbm, ⟨24, _⟩ => ⟨S4x8192x768, .i1⟩
  | .hbm, ⟨25, _⟩ => ⟨S_, .f32⟩
  | .hbm, ⟨26, _⟩ => ⟨S4x8192x768, .f32⟩
  | .hbm, ⟨27, _⟩ => ⟨S4x8192x768, .f32⟩
  | .hbm, ⟨28, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  gather_S8192x768_S4x8192x1_S4x8192x768_2_0_n_n_0_2_1768_wf : GatherDims.WF S8192x768 S4x8192x1 S4x8192x768 [2] [0] [] [0] [] 2 ![1, 768]

variable [Facts₀]

def gather_S8192x768_S4x8192x1_S4x8192x768_2_0_n_n_0_2_1768 : GatherDims S8192x768 S4x8192x1 S4x8192x768 where
  offsetDims := [2]
  collapsedSliceDims := [0]
  operandBatchingDims := []
  startIndicesBatchingDims := []
  startIndexMap := [0]
  indexVectorDim := 2
  sliceSizes := ![1, 768]
  wf := gather_S8192x768_S4x8192x1_S4x8192x768_2_0_n_n_0_2_1768_wf

class Facts : Prop extends Facts₀ where

variable [Facts]
-- ==== Proof.Spec.lean ====
/-
  The specification both programs meet: a table of rows added to every member of a batch.

  For an array `x` of shape [4, 8192, 768] and a table `pe` of shape [8192, 768] the result at
  `(b, s, d)` is `x[b, s, d] + pe[s, d]`: row `s` of the table is added to row `s` of each of the four
  batch members. The sum is the instance's own addition of two elements (at the ideal instance, the
  extended reals' `+`); nothing here needs the elements to be finite, since both programs perform
  this very addition on the very same pair of elements and differ only in how they reach row `s`.
-/
import Idealize.ShloMosaic.PureOps.Ideal
import Idealize.ShloMosaic.Lib.ValueIdx

noncomputable section

namespace Cert.PosAdd

open Idealize.ShloMosaic Idealize.ShloMosaic.ValueIdx

variable {F : FTy → Type} [FloatOps F]

/-- The table entry that array index `(b, s, d)` meets: `(s, d)` — the batch coordinate is forgotten. -/
abbrev rowOf (i : (⟨3, ![4, 8192, 768]⟩ : Shape).Idx) : (⟨2, ![8192, 768]⟩ : Shape).Idx :=
  ix2 (⟨(i 1).val, (i 1).isLt⟩ : Fin 8192) (⟨(i 2).val, (i 2).isLt⟩ : Fin 768)

/-- `addRows x pe (b, s, d) = x (b, s, d) + pe (s, d)`. -/
def addRows (x : FVec F ⟨3, ![4, 8192, 768]⟩ .f32) (pe : FVec F ⟨2, ![8192, 768]⟩ .f32) :
    FVec F ⟨3, ![4, 8192, 768]⟩ .f32 :=
  fun i => FloatOps.addf (x i) (pe (rowOf i))

/-- The specification read at an index. -/
theorem addRows_apply (x : FVec F ⟨3, ![4, 8192, 768]⟩ .f32) (pe : FVec F ⟨2, ![8192, 768]⟩ .f32)
    (i : (⟨3, ![4, 8192, 768]⟩ : Shape).Idx) : addRows x pe i = FloatOps.addf (x i) (pe (rowOf i)) := rfl

end Cert.PosAdd

end
-- ==== Proof.KernelValue.lean ====
/-
  What the kernel leaves in its result array, as one function of the argument arrays.

  The grid has eight points. Point `t` stages rows `1024·t … 1024·t + 1023` of every batch member of `x`
  (block index `(0, t, 0)` of blocks [4, 1024, 768]) and the same rows of the table (block index `(t, 0)` of blocks
  [1024, 768]); the body adds to each element `(b, r, d)` of the x block the table block's element `(r, d)` (the table
  block is given a leading unit axis and repeated over the four batch members) and the sum is written back to block
  `(0, t, 0)` of the result. An element of a block sits in its array at block index × block size + its coordinate
  in the block, axis by axis; so what point `t` writes back is block `t` of the whole-array function
  `addRows x pe` (Spec.lean). The eight row ranges tile the 8192 rows — row `s` lies in block `s / 1024` — so every
  index is written by some point, and the array ends holding `addRows x pe`.
-/
import proofs.«131208_g75256416960749_cont_9to1_m_647_8_alg».proof.Proof.Gen.KernelIdeal.Value
import proofs.«131208_g75256416960749_cont_9to1_m_647_8_alg».proof.Proof.Spec

noncomputable section

namespace Cert.KernelIdeal.PosValue

open Cert.KernelIdeal Cert.KernelIdeal.Gen Idealize.ShloMosaic Idealize.ShloMosaic.TcCoe Idealize.SL.Sem
open Idealize.ShloMosaic.Pipeline (Dat)
open Cert.PosAdd

variable {F : FTy → Type} [FloatOps F]
variable (m : (ℓ : Loc nD τ sig) → Buf (Elt F) ℓ) (ρ : Dev nD → PrngReg)

/-- Where each window's block sits at grid point `t`, decided over the eight points: the x block and the result
    block share the block index `(0, t, 0)`, and the table block's index is `(t, 0)` — the result block's row and
    column coordinates. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (1 : Fin 3)
    ∧ win0_1.index t (1 : Fin 2) = win0_2.index t (2 : Fin 3)
    ∧ win0_2.index t (0 : Fin 3) = 0 ∧ win0_2.index t (1 : Fin 3) = t.val ∧ win0_2.index t (2 : Fin 3) = 0 :=
  (by decide +kernel : ∀ t : Fin grid0.N, _)

/-- WHAT POINT `t` WRITES BACK is block `t` of `addRows x pe`: element `j = (b, r, d)` of the block is the x block's
    element `j` plus the table block's element `(r, d)`; the first sits in `x` where `j` sits in the result, the second
    sits in the table at that place's row and column. -/
theorem flushed_eq (c : Dev nD) (t : Fin cfg0.N) :
    (dats m 0 c).flushed 2 t
      = ((cfg0.win 2).blk t).view.read (Elt F) (addRows (V m c main_arg0) (V m c main_arg1)) := by
  rw [Value.flushed2]
  unfold out0_2
  obtain ⟨e0, e1, e2, e3, e4, -, -, -⟩ := block_indices t
  funext j
  have hj0 : (j 0).val < 4 := (j 0).isLt
  have hj1 : (j 1).val < 1024 := (j 1).isLt
  have hj2 : (j 2).val < 768 := (j 2).isLt
  show (View.canon [(⟨r0_0, k0_pay1 (View.ld (iblk m c 0 t) r0_0) (View.ld (iblk m c 1 t) r0_1)⟩ :
      View.Piece (Elt F) S4x1024x768 .f32)] : Vec F S4x1024x768 .f32) j
    = addRows (V m c main_arg0) (V m c main_arg1) (((cfg0.win 2).blk t).view.emb j)
  refine (Value.canon2_eq (View.ld (iblk m c 0 t) r0_0) (View.ld (iblk m c 1 t) r0_1) j).trans ?_
  show FloatOps.addf (V m c main_arg0 (((cfg0.win 0).blk t).view.emb (r0_0.toLoadRect.idx (Value.ix2_0 j))))
      (V m c main_arg1 (((cfg0.win 1).blk t).view.emb (r0_1.toLoadRect.idx (Value.ix2_1 j))))
    = FloatOps.addf (V m c main_arg0 (((cfg0.win 2).blk t).view.emb j))
      (V m c main_arg1 (rowOf (((cfg0.win 2).blk t).view.emb j)))
  have h0 : ((cfg0.win 0).blk t).view.emb (r0_0.toLoadRect.idx (Value.ix2_0 j)) = ((cfg0.win 2).blk t).view.emb j := by
    funext a; apply Fin.ext
    match a with
    | ⟨0, _⟩ => show win0_0.index t (0 : Fin 3) * 4 + 1 * (0 + 1 * (j 0).val) = win0_2.index t (0 : Fin 3) * 4 + 1 * (j 0).val; omega
    | ⟨1, _⟩ => show win0_0.index t (1 : Fin 3) * 1024 + 1 * (0 + 1 * (j 1).val) = win0_2.index t (1 : Fin 3) * 1024 + 1 * (j 1).val; omega
    | ⟨2, _⟩ => show win0_0.index t (2 : Fin 3) * 768 + 1 * (0 + 1 * (j 2).val) = win0_2.index t (2 : Fin 3) * 768 + 1 * (j 2).val; omega
  have h1 : ((cfg0.win 1).blk t).view.emb (r0_1.toLoadRect.idx (Value.ix2_1 j)) = rowOf (((cfg0.win 2).blk t).view.emb j) := by
    funext a; apply Fin.ext
    match a with
    | ⟨0, _⟩ => show win0_1.index t (0 : Fin 2) * 1024 + 1 * (0 + 1 * (j 1).val) = win0_2.index t (1 : Fin 3) * 1024 + 1 * (j 1).val; omega
    | ⟨1, _⟩ => show win0_1.index t (1 : Fin 2) * 768 + 1 * (0 + 1 * (j 2).val) = win0_2.index t (2 : Fin 3) * 768 + 1 * (j 2).val; omega
  rw [h0, h1]

/-- An index of the result array is in point `t`'s block iff each coordinate is in the block's range on its axis. -/
theorem mem_blk (t : Fin cfg0.N) (i : S4x8192x768.Idx) :
    i ∈ ((cfg0.win 2).blk t).view.set ↔ ∀ a : Fin 3, win0_2.index t a * S4x1024x768.size a ≤ (i a).val
      ∧ (i a).val < win0_2.index t a * S4x1024x768.size a + S4x1024x768.size a := by
  show i ∈ ((View.whole main_v0).slice (win0_2.rect t)).set ↔ _
  rw [View.set_slice_whole, Rect.mem_set_unit]
  exact Iff.rfl

/-- EVERY INDEX IS WRITTEN: `(b, s, d)` lies in the block of point `s / 1024`, which is written back. -/
theorem covered (i : S4x8192x768.Idx) :
    ∃ t : Fin cfg0.N, (cfg0.win 2).flush t = true ∧ i ∈ ((cfg0.win 2).blk t).view.set := by
  have hN : grid0.N = 8 := N_0
  have hi0 : (i 0).val < 4 := (i 0).isLt
  have hi1 : (i 1).val < 8192 := (i 1).isLt
  have hi2 : (i 2).val < 768 := (i 2).isLt
  have ht : (i 1).val / 1024 < grid0.N := by rw [hN]; omega
  refine ⟨⟨(i 1).val / 1024, ht⟩, flush0_2 _, ?_⟩
  rw [mem_blk]
  obtain ⟨-, -, -, -, -, e5, e6, e7⟩ := block_indices ⟨(i 1).val / 1024, ht⟩
  have e6' : win0_2.index ⟨(i 1).val / 1024, ht⟩ (1 : Fin 3) = (i 1).val / 1024 := e6
  intro a
  match a with
  | ⟨0, _⟩ => show win0_2.index _ (0 : Fin 3) * 4 ≤ (i 0).val ∧ (i 0).val < win0_2.index _ (0 : Fin 3) * 4 + 4; rw [e5]; omega
  | ⟨1, _⟩ => show win0_2.index _ (1 : Fin 3) * 1024 ≤ (i 1).val ∧ (i 1).val < win0_2.index _ (1 : Fin 3) * 1024 + 1024; rw [e6']; omega
  | ⟨2, _⟩ => show win0_2.index _ (2 : Fin 3) * 768 ≤ (i 2).val ∧ (i 2).val < win0_2.index _ (2 : Fin 3) * 768 + 768; rw [e7]; omega

/-- THE RESULT ARRAY after the run is `addRows x pe` of the argument arrays as launched. -/
theorem final (c : Dev nD) :
    (dats m 0 c).arrAt 2 cfg0.N
      = addRows (m ((c : Thread nD τ).loc main_arg0)) (m ((c : Thread nD τ).loc main_arg1)) :=
  (dats m 0 c).arrAt_eq_of_cover 2 (addRows (V m c main_arg0) (V m c main_arg1)) (fun t _ => flushed_eq m c t) covered

/-- The kernel's run, read: the result array at `addRows x pe`, the arguments unchanged. -/
theorem run : θ_run defs (onTc (τ := τ) (main (F := F))) ⟨m, fun _ => 0, ρ⟩ fun r => ∀ c : Dev nD,
      r.2.mem ((c : Thread nD τ).loc main_v0)
        = addRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.PosValue

end
-- ==== Proof.RefRun.lean ====
/-
  The reference's run, read back: its result as one term of the argument arrays.

  The reference computes `x + take(pe, pos)` where `pos[b, s] = s` (an iota over the sequence axis, given a leading
  unit axis and repeated over the four batch members) and `take` is jnp's: an index below zero is wrapped by
  adding the table's 8192 rows; the wrapped index is given a trailing unit axis; a mask says where that index
  vector lies in `[0, 8191]` (its one component compared with both bounds, the two bits `and`-ed, then `and`-reduced over the
  unit axis); the table's rows are gathered at the index; and where the mask is false the gathered row is replaced by
  the fill word `0x7FC00000`. Its @main is a straight line of twenty-seven host operations once the two module-local
  functions are unfolded at their calls, so every weakly fair execution terminates with each buffer at the
  operations' fold over the launch contents, and the fold at the result buffer is the term `result` below.
-/
import proofs.«131208_g75256416960749_cont_9to1_m_647_8_alg».proof.Proof.Gen.ReferenceIdeal
import Idealize.ShloMosaic.Lib.StableHlo.Run

noncomputable section

namespace Cert.ReferenceIdeal.Take

open Cert.ReferenceIdeal Cert.ReferenceIdeal.Gen Idealize.ShloMosaic Idealize.ShloMosaic.TcCoe Idealize.SL.Sem
  Idealize.ShloMosaic.StableHlo

variable {F : FTy → Type} [FloatOps F]

/-! ## The stages of the computation, as functions -/

/-- `pos[b, s] = s`: the iota over the 8192 rows, as one row, repeated over the four batch members. -/
def rowNumber : IVec S4x8192 32 :=
  broadcastInDim S4x8192 ![0, 1] bcast_S1x8192_S4x8192_0_1
    (broadcastInDim S1x8192 ![1] bcast_S8192_S1x8192_1 (iotaInDim S8192 32 0))

/-- jnp's index normalisation: an index below zero has the number of rows, 8192, added. -/
def wrapped (p : IVec S4x8192 32) : IVec S4x8192 32 :=
  select (cmpi .slt p (broadcastInDim S4x8192 ![] bcast_S_S4x8192 (constantI S_ 32 0#32)))
    (addi p (broadcastInDim S4x8192 ![] bcast_S_S4x8192 (constantI S_ 32 8192#32))) p

/-- The index array with a trailing unit axis: one index vector, of one component, per `(b, s)`. -/
def asVector (p : IVec S4x8192 32) : IVec S4x8192x1 32 :=
  broadcastInDim S4x8192x1 ![0, 1] bcast_S4x8192_S4x8192x1_0_1 p

/-- Where the index vector lies inside the table: `0 ≤ q` and `q ≤ 8191`, `and`-reduced over the vector's one component. -/
def inTable (q : IVec S4x8192x1 32) : IVec S4x8192 1 :=
  Host.reduce IntOp.andi
    (andi (cmpi .sge q (broadcastInDim S4x8192x1 ![] bcast_S_S4x8192x1 (constantI S_ 32 0#32)))
      (cmpi .sle q (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- `take(pe, p)`: the table's rows gathered at the wrapped indices, the fill word where the index is outside the table. -/
def takeRows (pe : FVec F S8192x768 .f32) (p : IVec S4x8192 32) : FVec F S4x8192x768 .f32 :=
  select (broadcastInDim S4x8192x768 ![0, 1] bcast_S4x8192_S4x8192x768_0_1 (inTable (asVector (wrapped p))))
    (Host.gather gather_S8192x768_S4x8192x1_S4x8192x768_2_0_n_n_0_2_1768 pe (asVector (wrapped p)))
    (broadcastInDim S4x8192x768 ![] bcast_S_S4x8192x768 (constant S_ .f32 0x7FC00000#32))

/-- The reference's result: `x + take(pe, pos)`. -/
def result (x : FVec F S4x8192x768 .f32) (pe : FVec F S8192x768 .f32) : FVec F S4x8192x768 .f32 :=
  addf x (takeRows pe rowNumber)

/-! ## @main as a list of operations -/

/-- @main's operations in order, the calls unfolded: the position array (three), `_take`'s body over the call's
    buffers with `_where`'s one select in its place (twenty-three), the final sum. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x768_S4x8192x1_S4x8192x768_2_0_n_n_0_2_1768 x i),
    TRef.unary main_call0.v12 main_call0.v14 (broadcastInDim S4x8192x768 ![0, 1] bcast_S4x8192_S4x8192x768_0_1),
    TRef.nullary main_call0.cst (constant S_ .f32 0x7FC00000#32),
    TRef.unary main_call0.cst main_call0.v15 (broadcastInDim S4x8192x768 ![] bcast_S_S4x8192x768),
    TRef.ternary main_call0.v14 main_call0.v13 main_call0.v15 main_call0.v16 select,
    binary main_arg0 main_v3 main_v4 (addf : (⟨S4x8192x768, .f32⟩ : BufTy).Contents (Elt F) → (⟨S4x8192x768, .f32⟩ : BufTy).Contents (Elt F) → (⟨S4x8192x768, .f32⟩ : BufTy).Contents (Elt F)) ]

-- twenty-seven binds re-associated: `simp`'s rewrite under the chain recurses once per statement
set_option maxRecDepth 1024 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 400000 in
/-- The fold at the result buffer is `result` of the launch contents of the two arguments: each operation writes its own
    buffer and every later operation reads it there. The reduction and the gather are kept folded meanwhile: the equation
    never looks inside them. -/
theorem result_eq (V : Valuation τ sig (Elt F)) :
    after ops V (main_v4 : DevRef τ sig) = result (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub ..⟩

/-- On every device, for any float values, from any memory with zero counters: every weakly fair execution of @main
    terminates with the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (result_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Take

end
-- ==== Proof.LibTakeRows.lean ====
/-
  General lemmas for a reference that takes rows of a table by an integer index array (`jnp.take(table, idx, axis=0)`),
  stated over arbitrary extents so that they can be reused as they stand.

  * `gather_rows_apply`: `stablehlo.gather` of a rank-2 table `[N, D]` at start indices `[R, C, 1]` (offset axis 2,
    the table's row axis collapsed and named by the start index, slices of one whole row) read at `(r, c, d)` is the
    table at row `idx[r, c, 0]` — read signed and clamped into `[0, N − 1]`, as StableHLO clamps every start index —
    and column `d`.
  * `reduce_andi_ones`: an `and`-reduction of an array of true bits from the initial value true is true, at every result index and
    whatever axes are reduced (the left fold of `and` over ones from one stays one).
  * `cmpi_slt_zero_of_small`, `cmpi_sge_zero_of_small`, `cmpi_sle_of_small`: a natural number below 2³¹ held in a 32-bit word
    reads signed as itself, so it is not below zero, is at least zero, and is at most any larger such number.
  * `clamp_ofNat`: clamping such a word's signed reading into `[0, N − 1]` leaves a number already below `N` alone.
-/
import Idealize.ShloMosaic.Lib.ValueIdx
import Idealize.ShloMosaic.Lib.WordArith
import Idealize.ShloMosaic.Lib.Affine
import Idealize.ShloMosaic.PureOps.Reduce

noncomputable section

namespace Cert.Lib.TakeRows

open Idealize.ShloMosaic Idealize.ShloMosaic.ValueIdx Idealize.ShloMosaic.WordArith

/-! ## The gather of whole rows of a table, read at an index -/

section Gather
variable {α : Type}

/-- The dimension numbers `jnp.take(table, idx, axis=0)` lowers to, for a table `[N, D]`, start indices `[R, C, 1]` and a result
    `[R, C, D]`; their conditions `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` of result index `(r, c, d)`. -/
abbrev rowsIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE GATHER READ AT `(r, c, d)`: the table at the row the start index `idx[r, c, 0]` names — read signed and clamped into
    `[0, N − 1]` — and column `d`. On the row axis the operand index is the clamped start (no batching, the axis
    collapsed so no offset); on the column axis the start is zero and the offset is the result's last coordinate. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y
      = x (ix2 (⟨min (idx (rowsIdx y)).toInt.toNat (N - 1), by omega⟩ : Fin N) (⟨(y 2).val, (y 2).isLt⟩ : Fin D)) := by
  unfold Host.gather
  congr 1
  funext a
  refine Fin.ext ?_
  match a with
  | ⟨0, _⟩ =>
    show (rowsDims N D R C wf).start y idx 0 + (rowsDims N D R C wf).batchCoord y 0 + (rowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx y ⟨List.idxOf (0 : Fin 2) (rowsDims N D R C wf).startIndexMap,
        List.idxOf_lt_length_iff.2 (List.mem_singleton.mpr rfl)⟩ = rowsIdx y := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start y idx 1 + (rowsDims N D R C wf).batchCoord y 1 + (rowsDims N D R C wf).offCoord y 1 = (y 2).val
    have hs : (rowsDims N D R C wf).start y idx 1 = 0 := by
      unfold GatherDims.start
      rw [dif_neg (show (1 : Fin 2) ∉ (rowsDims N D R C wf).startIndexMap from
        fun h => absurd (List.mem_singleton.mp h) (Fin.ne_of_val_ne Nat.one_ne_zero))]
    have hk : (1 : Fin 2) ∈ (rowsDims N D R C wf).sKept :=
      (GatherDims.mem_sKept _ _).mpr ⟨fun h => absurd (List.mem_singleton.mp h) (Fin.ne_of_val_ne Nat.one_ne_zero), List.not_mem_nil⟩
    rw [hs, GatherDims.batchCoord_eq_zero _ _ _ List.not_mem_nil]
    simp only [Nat.zero_add, Nat.add_zero]
    unfold GatherDims.offCoord
    rw [dif_pos hk]
    rfl

end Gather

/-! ## An `and`-reduction of true bits -/

/-- The left fold of `and` with the bit one, from one, is one. -/
theorem foldl_andi_one {β : Type} (l : List β) :
    l.foldl (fun (r : BitVec 1) (_ : β) => IntOp.andi r 1#1) 1#1 = 1#1 := by
  induction l with
  | nil => rfl
  | cons a l ih =>
    rw [List.foldl_cons, show IntOp.andi (1#1 : BitVec 1) 1#1 = 1#1 from by decide]
    exact ih

/-- An `and`-reduction of an array whose every bit is one, from the initial value one, is one at every result index. -/
theorem reduce_andi_ones {s t u : Shape} {axes : List (Fin s.rank)} (h : s.ReducesTo axes t) (hu : 0 < u.numel)
    (j : t.Idx) :
    Host.reduce IntOp.andi (fun _ : s.Idx => (1#1 : BitVec 1)) (fun _ : u.Idx => (1#1 : BitVec 1)) h hu j = 1#1 := by
  unfold Host.reduce
  exact foldl_andi_one _

/-! ## Small natural numbers as signed 32-bit words -/

/-- A number below 2³¹ is not below zero when read signed. -/
theorem cmpi_slt_zero_of_small (P : Nat) (h : P < 2 ^ 31) : IntOp.cmpi .slt (BitVec.ofNat 32 P) 0#32 = 0#1 := by
  refine eq_zero_of_ne_one fun h1 => ?_
  have h2 := IntOp.cmpi_slt.mp h1
  rw [toInt_ofNat_small P h, BitVec.toInt_zero] at h2
  omega

/-- A number below 2³¹ is at least zero when read signed. -/
theorem cmpi_sge_zero_of_small (P : Nat) (h : P < 2 ^ 31) : IntOp.cmpi .sge (BitVec.ofNat 32 P) 0#32 = 1#1 := by
  refine IntOp.cmpi_sge.mpr ?_
  rw [toInt_ofNat_small P h, BitVec.toInt_zero]
  omega

/-- Of two numbers below 2³¹ in order, the signed comparison `≤` holds. -/
theorem cmpi_sle_of_small (P Q : Nat) (hPQ : P ≤ Q) (hQ : Q < 2 ^ 31) :
    IntOp.cmpi .sle (BitVec.ofNat 32 P) (BitVec.ofNat 32 Q) = 1#1 := by
  refine IntOp.cmpi_sle.mpr ?_
  rw [toInt_ofNat_small P (by omega), toInt_ofNat_small Q hQ]
  omega

/-- Clamping the signed reading of a number below `N` (and below 2³¹) into `[0, N − 1]` returns the number. -/
theorem clamp_ofNat (P N : Nat) (hP : P < N) (h : P < 2 ^ 31) : min (BitVec.ofNat 32 P).toInt.toNat (N - 1) = P := by
  rw [toInt_ofNat_small P h]
  omega

end Cert.Lib.TakeRows

end
-- ==== Proof.RefValue.lean ====
/-
  The reference's result is the specification: `x + take(pe, pos)` is `addRows x pe`, index by index.

  At `(b, s, d)`: the position array holds the word `s`, a number below 8192 and so below 2³¹, which read signed is `s` itself.
  It is therefore not below zero, and jnp's wrap-around leaves it alone; the index vector at `(b, s)` has the one
  component `s`, which lies in `[0, 8191]`, so the in-table mask is true everywhere and the select keeps the gathered
  row; the gather reads the table at the row the index names, clamped into `[0, 8191]` — `s` again — and at column
  `d`. What is added to `x[b, s, d]` is thus `pe[s, d]`, by the very addition the specification names. The fill word
  is never selected, so its value plays no part.
-/
import proofs.«131208_g75256416960749_cont_9to1_m_647_8_alg».proof.Proof.RefRun
import proofs.«131208_g75256416960749_cont_9to1_m_647_8_alg».proof.Proof.LibTakeRows
import proofs.«131208_g75256416960749_cont_9to1_m_647_8_alg».proof.Proof.Spec
import Idealize.ShloMosaic.Lib.Pipeline.Value
import Idealize.ShloMosaic.Lib.IdealHost

noncomputable section

namespace Cert.ReferenceIdeal.Take

open Cert.ReferenceIdeal Cert.ReferenceIdeal.Gen Idealize.ShloMosaic Idealize.ShloMosaic.ValueIdx
open Cert.Lib.TakeRows Cert.PosAdd

variable {F : FTy → Type} [FloatOps F]

/-- The position array at `(b, s)` is the word `s`: the iota's entry `s`, read through the two broadcasts. -/
theorem rowNumber_apply (b : Fin 4) (s : Fin 8192) : rowNumber (ix2 b s) = BitVec.ofNat 32 s.val := by
  unfold rowNumber
  refine (broadcastInDim_apply _ _ _ (ix2 b s) (ix2 (0 : Fin 1) s) (fun a => ?_)).trans ?_
  · match a with
    | ⟨0, _⟩ => show 0 = if (1 : Nat) = 1 then 0 else b.val; rw [if_pos rfl]
    | ⟨1, _⟩ => show s.val = if (8192 : Nat) = 1 then 0 else s.val; rw [if_neg (by decide)]
  refine (broadcastInDim_apply _ _ _ (ix2 (0 : Fin 1) s) (ix1 s) (fun a => ?_)).trans ?_
  · match a with
    | ⟨0, _⟩ => show s.val = if (8192 : Nat) = 1 then 0 else s.val; rw [if_neg (by decide)]
  rfl

/-- The wrap-around leaves an index that is a number below 2³¹ alone: it is not below zero. -/
theorem wrapped_apply (p : IVec S4x8192 32) (j : S4x8192.Idx) (P : Nat) (hP : P < 2 ^ 31)
    (hp : p j = BitVec.ofNat 32 P) : wrapped p j = BitVec.ofNat 32 P := by
  unfold wrapped
  rw [select_apply]
  have hc : cmpi .slt p (broadcastInDim S4x8192 ![] bcast_S_S4x8192 (constantI S_ 32 0#32)) j = 0#1 := by
    show IntOp.cmpi .slt (p j) 0#32 = 0#1
    rw [hp]
    exact cmpi_slt_zero_of_small P hP
  rw [hc, select_zero, hp]

/-- The index vector at `(b, s)` has the one component `p[b, s]`. -/
theorem asVector_apply (p : IVec S4x8192 32) (b : Fin 4) (s : Fin 8192) (z : Fin 1) :
    asVector p (ix3 b s z) = p (ix2 b s) := by
  unfold asVector
  refine broadcastInDim_apply _ _ _ (ix3 b s z) (ix2 b s) (fun a => ?_)
  match a with
  | ⟨0, _⟩ => show b.val = if (4 : Nat) = 1 then 0 else b.val; rw [if_neg (by decide)]
  | ⟨1, _⟩ => show s.val = if (8192 : Nat) = 1 then 0 else s.val; rw [if_neg (by decide)]

/-- When every index is a number of `[0, 8191]`, the in-table mask is true everywhere: both comparisons hold at every
    component, and the `and`-reduction of true bits is true. -/
theorem inTable_eq_one (q : IVec S4x8192x1 32) (hq : ∀ j, ∃ P : Nat, P ≤ 8191 ∧ q j = BitVec.ofNat 32 P)
    (k : S4x8192.Idx) : inTable q k = 1#1 := by
  unfold inTable
  have hones : andi (cmpi .sge q (broadcastInDim S4x8192x1 ![] bcast_S_S4x8192x1 (constantI S_ 32 0#32)))
      (cmpi .sle q (broadcastInDim S4x8192x1 ![0, 1, 2] bcast_S1x1x1_S4x8192x1_0_1_2
        (broadcastInDim S1x1x1 ![2] bcast_S1_S1x1x1_2 (constantI S1 32 8191#32)))) = fun _ => 1#1 := by
    funext j
    obtain ⟨P, hP, hj⟩ := hq j
    show IntOp.andi (IntOp.cmpi .sge (q j) 0#32) (IntOp.cmpi .sle (q j) (BitVec.ofNat 32 8191)) = 1#1
    rw [hj, cmpi_sge_zero_of_small P (by omega), cmpi_sle_of_small P 8191 hP (by norm_num)]
    decide
  rw [hones]
  exact reduce_andi_ones _ _ k

/-- The printed gather's dimension numbers are those of taking whole rows of a table. -/
theorem gather_dims_eq : gather_S8192x768_S4x8192x1_S4x8192x768_2_0_n_n_0_2_1768
    = rowsDims 8192 768 4 8192 gather_S8192x768_S4x8192x1_S4x8192x768_2_0_n_n_0_2_1768_wf := rfl

/-- THE REFERENCE'S RESULT IS THE SPECIFICATION. -/
theorem result_eq_addRows (x : FVec F S4x8192x768 .f32) (pe : FVec F S8192x768 .f32) : result x pe = addRows x pe := by
  funext i
  obtain ⟨b, s, d, rfl⟩ : ∃ (b : Fin 4) (s : Fin 8192) (d : Fin 768), i = ix3 b s d := ⟨i 0, i 1, i 2, eq_ix3 i⟩
  have hs : s.val < 8192 := s.isLt
  -- the index vector at `(b', s')` is the word `s'`
  have hq : ∀ (b' : Fin 4) (s' : Fin 8192) (z : Fin 1),
      asVector (wrapped rowNumber) (ix3 b' s' z) = BitVec.ofNat 32 s'.val := fun b' s' z => by
    rw [asVector_apply]
    exact wrapped_apply _ _ s'.val (by have := s'.isLt; omega) (rowNumber_apply b' s')
  show FloatOps.addf (x (ix3 b s d)) (takeRows pe rowNumber (ix3 b s d))
    = FloatOps.addf (x (ix3 b s d)) (pe (rowOf (ix3 b s d)))
  refine congrArg (FloatOps.addf (x (ix3 b s d))) ?_
  unfold takeRows
  rw [select_apply]
  have hm : broadcastInDim S4x8192x768 ![0, 1] bcast_S4x8192_S4x8192x768_0_1
      (inTable (asVector (wrapped rowNumber))) (ix3 b s d) = 1#1 := by
    refine (broadcastInDim_apply _ _ _ (ix3 b s d) (ix2 b s) (fun a => ?_)).trans ?_
    · match a with
      | ⟨0, _⟩ => show b.val = if (4 : Nat) = 1 then 0 else b.val; rw [if_neg (by decide)]
      | ⟨1, _⟩ => show s.val = if (8192 : Nat) = 1 then 0 else s.val; rw [if_neg (by decide)]
    refine inTable_eq_one _ (fun j => ?_) _
    rw [eq_ix3 j]
    have hj1 : (j 1).val < 8192 := (j 1).isLt
    exact ⟨(j 1).val, by omega, hq _ _ _⟩
  have hr : rowsIdx (ix3 b s d) = ix3 b s (0 : Fin 1) := by
    funext a
    match a with
    | ⟨0, _⟩ => rfl
    | ⟨1, _⟩ => rfl
    | ⟨2, _⟩ => rfl
  rw [hm, select_one, gather_dims_eq, gather_rows_apply (by decide)]
  refine congrArg pe (funext fun a => Fin.ext ?_)
  match a with
  | ⟨0, _⟩ =>
    show min (asVector (wrapped rowNumber) (rowsIdx (ix3 b s d))).toInt.toNat (8192 - 1) = s.val
    rw [hr, hq]
    exact clamp_ofNat s.val 8192 hs (by omega)
  | ⟨1, _⟩ => rfl

end Cert.ReferenceIdeal.Take

end
-- ==== Proof.lean ====
/-
  The certificate's claims.

  The kernel adds a table of position rows to every member of a batch, eight blocks of 1024 rows at a time; the
  reference adds to the same array the rows `take(pe, pos)` gathers at the positions `pos[b, s] = s`. Both end with
  the one array `addRows x pe`, `(b, s, d) ↦ x[b, s, d] + pe[s, d]` (Proof/Spec.lean): the kernel because its eight
  blocks tile the array and each is that function's block (Proof/KernelValue.lean), the reference because the position
  `s` is a row of the table, so that neither jnp's wrap-around nor the gather's clamp moves it and the out-of-table
  mask is true everywhere (Proof/RefRun.lean, Proof/RefValue.lean). On each side the one float operation is the
  addition of the same two elements, so the two results are equal as extended reals with no appeal to the inputs being finite.
  The three frames are the programs' runs with the result forgotten; the idealization rewrote nothing, so
  `preserves` holds trivially.
-/
import proofs.«131208_g75256416960749_cont_9to1_m_647_8_alg».proof.Defs
import proofs.«131208_g75256416960749_cont_9to1_m_647_8_alg».proof.Proof.Gen.Kernel
import proofs.«131208_g75256416960749_cont_9to1_m_647_8_alg».proof.Proof.Gen.Kernel.Skeleton
import proofs.«131208_g75256416960749_cont_9to1_m_647_8_alg».proof.Proof.Gen.Kernel.Launch
import proofs.«131208_g75256416960749_cont_9to1_m_647_8_alg».proof.Proof.Gen.Kernel.Points
import proofs.«131208_g75256416960749_cont_9to1_m_647_8_alg».proof.Proof.Gen.Kernel.Frame
import proofs.«131208_g75256416960749_cont_9to1_m_647_8_alg».proof.Proof.Gen.KernelIdeal
import proofs.«131208_g75256416960749_cont_9to1_m_647_8_alg».proof.Proof.Gen.KernelIdeal.Skeleton
import proofs.«131208_g75256416960749_cont_9to1_m_647_8_alg».proof.Proof.Gen.KernelIdeal.Launch
import proofs.«131208_g75256416960749_cont_9to1_m_647_8_alg».proof.Proof.Gen.KernelIdeal.Points
import proofs.«131208_g75256416960749_cont_9to1_m_647_8_alg».proof.Proof.Gen.KernelIdeal.Frame
import proofs.«131208_g75256416960749_cont_9to1_m_647_8_alg».proof.Proof.Gen.KernelIdeal.Value
import proofs.«131208_g75256416960749_cont_9to1_m_647_8_alg».proof.Proof.Gen.ReferenceIdeal
import proofs.«131208_g75256416960749_cont_9to1_m_647_8_alg».proof.Proof.Gen.Pre_finite_inputs
import proofs.«131208_g75256416960749_cont_9to1_m_647_8_alg».proof.Proof.KernelValue
import proofs.«131208_g75256416960749_cont_9to1_m_647_8_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Take.run (F := Ideal) m ρ)

/-- The idealization rewrote no operation. -/
theorem preserves : Cert.preserves_Kernel_KernelIdeal := trivial

/-- From memories that agree on `x` and `pe`, the kernel ends with `addRows x pe` in its result array and the reference with
    `x + take(pe, pos)`, which is `addRows x pe` of its own — the same — arguments. -/
theorem algebraic : Cert.algebraic_KernelIdeal_ReferenceIdeal := by
  intro m ρ m' ρ' _ hagree
  refine ⟨_, Cert.KernelIdeal.PosValue.run (F := Ideal) m ρ, ?_⟩
  refine (θ_run Cert.ReferenceIdeal.defs _ _).mono (fun _ h c => ⟨(h c).1.trans ?_, (h c).2⟩)
    (Cert.ReferenceIdeal.Take.run (F := Ideal) m' ρ')
  rw [Cert.ReferenceIdeal.Take.result_eq_addRows, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
